-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x128x128 : Shape := ⟨4, ![8, 512, 128, 128]⟩
abbrev S512 : Shape := ⟨1, ![512]⟩
abbrev S_ : Shape := ⟨0, ![]⟩

class Facts : Prop where
  bcast_S_S8x512x128x128 : S_.BroadcastsInDim S8x512x128x128 (![] : Fin 0 → Fin S8x512x128x128.rank)
  reducesTo_S8x512x128x128_S_d0_1_2_3 : S8x512x128x128.ReducesTo [0, 1, 2, 3] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S8x512x128x128 .f32) (main_arg1 : FVec F S512 .f32) (main_arg2 : FVec F S512 .f32) : IVec S_ 1 :=
  let main_v0 : FVec F S8x512x128x128 .f32 := Host.absf main_arg0
  let main_cst : FVec F S_ .f32 := constant S_ .f32 0x7F800000#32
  let main_v1 : FVec F S8x512x128x128 .f32 := broadcastInDim S8x512x128x128 ![] bcast_S_S8x512x128x128 main_cst
  let main_v2 : IVec S8x512x128x128 1 := cmpf .olt main_v0 main_v1
  let main_c : IVec S_ 1 := constantI S_ 1 1#1
  let main_v3 : IVec S_ 1 := (fun x v => Host.reduce IntOp.andi x v reducesTo_S8x512x128x128_S_d0_1_2_3 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S8x512x128x128 : Shape := ⟨4, ![8, 512, 128, 128]⟩
abbrev S512 : Shape := ⟨1, ![512]⟩
abbrev S1x128x128x128 : Shape := ⟨4, ![1, 128, 128, 128]⟩
abbrev S128 : Shape := ⟨1, ![128]⟩
abbrev S1x128x1x1 : Shape := ⟨4, ![1, 128, 1, 1]⟩

abbrev nBuf : Space → Nat
  | .hbm => 4
  | .vmem => 8
  | .smem => 0
  | _ => 0

abbrev bufTy : (tb : Table) → Fin (tcTables nBuf tb) → BufTy
  | .hbm, ⟨0, _⟩ => ⟨S8x512x128x128, .f32⟩
  | .hbm, ⟨1, _⟩ => ⟨S512, .f32⟩
  | .hbm, ⟨2, _⟩ => ⟨S512, .f32⟩
  | .hbm, ⟨3, _⟩ => ⟨S8x512x128x128, .f32⟩
  | .local _ .vmem, ⟨0, _⟩ => ⟨S1x128x128x128, .f32⟩
  | .local _ .vmem, ⟨1, _⟩ => ⟨S1x128x128x128, .f32⟩
  | .local _ .vmem, ⟨2, _⟩ => ⟨S128, .f32⟩
  | .local _ .vmem, ⟨3, _⟩ => ⟨S128, .f32⟩
  | .local _ .vmem, ⟨4, _⟩ => ⟨S128, .f32⟩
  | .local _ .vmem, ⟨5, _⟩ => ⟨S128, .f32⟩
  | .local _ .vmem, ⟨6, _⟩ => ⟨S1x128x128x128, .f32⟩
  | .local _ .vmem, ⟨7, _⟩ => ⟨S1x128x128x128, .f32⟩
  | _, _ => ⟨S8x512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S128_S128_0 : ∀ a, (![0] : Fin 1 → Nat) a + S128.size a ≤ S128.size a
  h_S128 : 0 < S128.numel
  shapeCasts_S128_S1x128x1x1 : S128.ShapeCasts S1x128x1x1
  inb_S1x128x128x128_S1x128x128x128_0_0_0_0 : ∀ a, (![0, 0, 0, 0] : Fin 4 → Nat) a + S1x128x128x128.size a ≤ S1x128x128x128.size a
  h_S1x128x128x128 : 0 < S1x128x128x128.numel
  broadcasts_S1x128x1x1_S1x128x128x128 : S1x128x1x1.Broadcasts S1x128x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x128.size a ≤ S8x512x128x128.size a
  hwx0_0 : ∀ i : grid0.Coords, EltTy.bits .f32 = 32 ∨ (Rect.block (s := S8x512x128x128) S1x128x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S512.size a
  hwx0_1 : ∀ i : grid0.Coords, EltTy.bits .f32 = 32 ∨ (Rect.block (s := S512) S128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S512.size a
  hwx0_2 : ∀ i : grid0.Coords, EltTy.bits .f32 = 32 ∨ (Rect.block (s := S512) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128x128.size a ≤ S8x512x128x128.size a
  hwx0_3 : ∀ i : grid0.Coords, EltTy.bits .f32 = 32 ∨ (Rect.block (s := S8x512x128x128) S1x128x128x128.size (cc0_transform_3 i) (hinb0_3 i)).WholeWords (EltTy.packing .f32)

variable [Facts₀]

abbrev win0_0 : Pipeline.Window sig grid0 :=
  Pipeline.Window.ofSpec (Memref.whole main_arg0) S1x128x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x512x128x128 : Shape := ⟨4, ![8, 512, 128, 128]⟩
abbrev S512 : Shape := ⟨1, ![512]⟩
abbrev S512x1x1 : Shape := ⟨3, ![512, 1, 1]⟩
abbrev S1x512x1x1 : Shape := ⟨4, ![1, 512, 1, 1]⟩

abbrev nBuf : Space → Nat
  | .hbm => 11
  | .vmem => 0
  | .smem => 0
  | _ => 0

abbrev bufTy : (tb : Table) → Fin (tcTables nBuf tb) → BufTy
  | .hbm, ⟨0, _⟩ => ⟨S8x512x128x128, .f32⟩
  | .hbm, ⟨1, _⟩ => ⟨S512, .f32⟩
  | .hbm, ⟨2, _⟩ => ⟨S512, .f32⟩
  | .hbm, ⟨3, _⟩ => ⟨S512x1x1, .f32⟩
  | .hbm, ⟨4, _⟩ => ⟨S1x512x1x1, .f32⟩
  | .hbm, ⟨5, _⟩ => ⟨S8x512x128x128, .f32⟩
  | .hbm, ⟨6, _⟩ => ⟨S8x512x128x128, .f32⟩
  | .hbm, ⟨7, _⟩ => ⟨S512x1x1, .f32⟩
  | .hbm, ⟨8, _⟩ => ⟨S1x512x1x1, .f32⟩
  | .hbm, ⟨9, _⟩ => ⟨S8x512x128x128, .f32⟩
  | .hbm, ⟨10, _⟩ => ⟨S8x512x128x128, .f32⟩
  | _, _ => ⟨S8x512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S512_S512x1x1_0 : S512.BroadcastsInDim S512x1x1 (![0] : Fin 1 → Fin S512x1x1.rank)
  bcast_S512x1x1_S1x512x1x1_1_2_3 : S512x1x1.BroadcastsInDim S1x512x1x1 (![1, 2, 3] : Fin 3 → Fin S1x512x1x1.rank)
  bcast_S1x512x1x1_S8x512x128x128_0_1_2_3 : S1x512x1x1.BroadcastsInDim S8x512x128x128 (![0, 1, 2, 3] : Fin 4 → Fin S8x512x128x128.rank)

variable [Facts₀]

class Facts : Prop extends Facts₀ where

variable [Facts]
-- ==== Proof.ChannelAffine.lean ====
/-
  The function both programs compute: a per-channel affine map of a rank-4 array.

  For `x` of extents 8 × 512 × 128 × 128 and two vectors `w`, `b` of length 512, the result at the
  index (n, i, j, k) is `x(n, i, j, k) · w(i) + b(i)`: the scale and the shift depend on the
  coordinate of axis 1 (the channel) alone. Stated for any float instance: one product and one
  sum per element, so nothing here needs a law of the extended reals.
-/
import Idealize.ShloMosaic.PureOps.Ideal
import Idealize.ShloMosaic.Lib.ValueIdx

noncomputable section

namespace Cert.ChannelAffine

open Idealize.ShloMosaic Idealize.ShloMosaic.ValueIdx

variable {F : FTy → Type} [FloatOps F]

/-- The channel of an array index, as an index of the two vectors: its coordinate on axis 1. -/
abbrev chan (i : (⟨4, ![8, 512, 128, 128]⟩ : Shape).Idx) : (⟨1, ![512]⟩ : Shape).Idx :=
  ix1 (n := 512) (i 1)

/-- The channel of an index has, as its one coordinate, that index's coordinate on axis 1. -/
theorem chan_val (i : (⟨4, ![8, 512, 128, 128]⟩ : Shape).Idx) : ((chan i) 0).val = (i 1).val := rfl

/-- `x(n, i, j, k) · w(i) + b(i)`, index by index. -/
def affine (x : (⟨4, ![8, 512, 128, 128]⟩ : Shape).Idx → Elt F .f32) (w b : (⟨1, ![512]⟩ : Shape).Idx → Elt F .f32) :
    (⟨4, ![8, 512, 128, 128]⟩ : Shape).Idx → Elt F .f32 :=
  fun i => FloatOps.addf (FloatOps.mulf (x i) (w (chan i))) (b (chan i))

/-- The map at one index. -/
theorem affine_apply (x : (⟨4, ![8, 512, 128, 128]⟩ : Shape).Idx → Elt F .f32) (w b : (⟨1, ![512]⟩ : Shape).Idx → Elt F .f32)
    (i : (⟨4, ![8, 512, 128, 128]⟩ : Shape).Idx) :
    affine x w b i = FloatOps.addf (FloatOps.mulf (x i) (w (chan i))) (b (chan i)) := rfl

end Cert.ChannelAffine

end
-- ==== Proof.KernelAffine.lean ====
/-
  The kernel's result array is the per-channel affine map.

  The grid has 8 × 4 points. At the point (n, q) the body loads the block of `x` with batch entry n and
  channels 128·q … 128·q + 127 (all of the last two axes), the 128 entries of the scale vector and of the
  shift vector for those channels, lays each vector out along the channel axis of the block, and stores
  `x · scale + shift` over the whole block of the result at the same position. So the block a point
  writes back is the restriction of the per-channel affine map of the whole arrays to that block:
  the channel of the block's entry (0, i, j, k) is 128·q + i, which is where both vectors' blocks read
  their entry i. The 32 blocks tile the result array — the index (n, i, j, k) lies in the block of the
  point (n, i / 128) — so the array ends as the affine map everywhere.
-/
import proofs.«149766_j19387482374244_1_alg».proof.Proof.Gen.KernelIdeal.Value
import proofs.«149766_j19387482374244_1_alg».proof.Proof.ChannelAffine

noncomputable section

namespace Cert.KernelIdeal.BlockValue

open Cert.KernelIdeal Cert.KernelIdeal.Gen Cert.ChannelAffine
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## One block: what the body leaves, entry by entry -/

theorem zeros1 : (![0] : Fin 1 → Nat) = fun _ => 0 := funext fun a => by fin_cases a <;> rfl
theorem zeros4 : (![0, 0, 0, 0] : Fin 4 → Nat) = fun _ => 0 := funext fun a => by fin_cases a <;> rfl

/-- The block the body leaves from a block `x0` of the array and blocks `x1`, `x2` of the two vectors: at the
    entry (0, i, j, k) it is `x0(0, i, j, k) · x1(i) + x2(i)`. -/
theorem block_apply (x0 : Vec F S1x128x128x128 .f32) (x1 x2 : Vec F S128 .f32) (y : S1x128x128x128.Idx) :
    out0_3 x0 x1 x2 y = FloatOps.addf (FloatOps.mulf (x0 y) (x1 (Value.ix3_1 y))) (x2 (Value.ix3_2 y)) := by
  unfold out0_3
  simp only [View.ld_unit_zero (S := S128) zeros1, View.ld_unit_zero (S := S1x128x128x128) zeros4]
  refine (Value.canon3_eq x0 x1 x2 y).trans ?_
  show FloatOps.addf (FloatOps.mulf (x0 (Value.ix3_0 y)) (x1 (Value.ix3_1 y))) (x2 (Value.ix3_2 y)) = _
  have e : Value.ix3_0 y = y := by
    funext a; apply Fin.ext
    match a with
    | ⟨0, _⟩ => show 0 = (y 0).val; have hy0 : (y 0).val < 1 := (y 0).isLt; omega
    | ⟨1, _⟩ => rfl
    | ⟨2, _⟩ => rfl
    | ⟨3, _⟩ => rfl
  rw [e]

/-! ## The blocks' positions -/

/-- The printed index maps, decided over the 32 grid points: the array's input block sits where the output
    block does; both vectors' blocks sit at the output block's channel position; the output's block
    positions are (n, q, 0, 0) with n below 8 and q below 4. -/
theorem idx_facts : ∀ t : Fin cfg0.N, win0_0.index t (0 : Fin 4) = win0_3.index t (0 : Fin 4)
    ∧ win0_0.index t (1 : Fin 4) = win0_3.index t (1 : Fin 4)
    ∧ win0_0.index t (2 : Fin 4) = win0_3.index t (2 : Fin 4)
    ∧ win0_0.index t (3 : Fin 4) = win0_3.index t (3 : Fin 4)
    ∧ win0_1.index t (0 : Fin 1) = win0_3.index t (1 : Fin 4)
    ∧ win0_2.index t (0 : Fin 1) = win0_3.index t (1 : Fin 4)
    ∧ win0_3.index t (0 : Fin 4) ≤ 7 ∧ win0_3.index t (1 : Fin 4) ≤ 3
    ∧ win0_3.index t (2 : Fin 4) = 0 ∧ win0_3.index t (3 : Fin 4) = 0 :=
  (by decide +kernel : ∀ t : Fin grid0.N, _)

/-- Every position (n, q, 0, 0) is some point's output block. -/
theorem idx_onto : ∀ (q0 : Fin 8) (q1 : Fin 4), ∃ t : Fin cfg0.N, win0_3.index t = ![q0.val, q1.val, 0, 0] :=
  (by decide +kernel : ∀ (q0 : Fin 8) (q1 : Fin 4), ∃ t : Fin grid0.N, win0_3.index t = ![q0.val, q1.val, 0, 0])

/-! ## What a point writes back -/

/-- What the point `t` writes back is block `t` of the affine map of the three argument arrays. -/
theorem flushed_eq (c : Dev nD) (t : Fin cfg0.N) :
    (dats m 0 c).flushed 3 t
      = ((cfg0.win 3).blk t).view.read (Elt F) (affine (V m c main_arg0) (V m c main_arg1) (V m c main_arg2)) := by
  rw [Value.flushed3]
  funext y
  show out0_3 (iblk m c 0 t) (iblk m c 1 t) (iblk m c 2 t) y
    = affine (V m c main_arg0) (V m c main_arg1) (V m c main_arg2) (((cfg0.win 3).blk t).view.emb y)
  refine (block_apply (iblk m c 0 t) (iblk m c 1 t) (iblk m c 2 t) y).trans ?_
  show FloatOps.addf (FloatOps.mulf (V m c main_arg0 (((cfg0.win 0).blk t).view.emb y))
        (V m c main_arg1 (((cfg0.win 1).blk t).view.emb (Value.ix3_1 y))))
      (V m c main_arg2 (((cfg0.win 2).blk t).view.emb (Value.ix3_2 y)))
    = FloatOps.addf (FloatOps.mulf (V m c main_arg0 (((cfg0.win 3).blk t).view.emb y))
        (V m c main_arg1 (chan (((cfg0.win 3).blk t).view.emb y))))
      (V m c main_arg2 (chan (((cfg0.win 3).blk t).view.emb y)))
  obtain ⟨e0, e1, e2, e3, e4, e5, -, -, -, -⟩ := idx_facts t
  have hy1 : (y 1).val < 128 := (y 1).isLt
  have h0 : ((cfg0.win 0).blk t).view.emb y = ((cfg0.win 3).blk t).view.emb y := by
    funext a; apply Fin.ext
    match a with
    | ⟨0, _⟩ => show win0_0.index t (0 : Fin 4) * 1 + 1 * (y 0).val = win0_3.index t (0 : Fin 4) * 1 + 1 * (y 0).val; omega
    | ⟨1, _⟩ => show win0_0.index t (1 : Fin 4) * 128 + 1 * (y 1).val = win0_3.index t (1 : Fin 4) * 128 + 1 * (y 1).val; omega
    | ⟨2, _⟩ => show win0_0.index t (2 : Fin 4) * 128 + 1 * (y 2).val = win0_3.index t (2 : Fin 4) * 128 + 1 * (y 2).val; omega
    | ⟨3, _⟩ => show win0_0.index t (3 : Fin 4) * 128 + 1 * (y 3).val = win0_3.index t (3 : Fin 4) * 128 + 1 * (y 3).val; omega
  have h1 : ((cfg0.win 1).blk t).view.emb (Value.ix3_1 y) = chan (((cfg0.win 3).blk t).view.emb y) := by
    funext a; apply Fin.ext
    match a with
    | ⟨0, _⟩ => show win0_1.index t (0 : Fin 1) * 128 + 1 * (y 1).val = win0_3.index t (1 : Fin 4) * 128 + 1 * (y 1).val; omega
  have h2 : ((cfg0.win 2).blk t).view.emb (Value.ix3_2 y) = chan (((cfg0.win 3).blk t).view.emb y) := by
    funext a; apply Fin.ext
    match a with
    | ⟨0, _⟩ => show win0_2.index t (0 : Fin 1) * 128 + 1 * (y 1).val = win0_3.index t (1 : Fin 4) * 128 + 1 * (y 1).val; omega
  rw [h0, h1, h2]

/-! ## The blocks tile the array -/

/-- An array index is in the output block of the point `t` iff each coordinate is in the block's range. -/
theorem mem_blk (t : Fin cfg0.N) (i : S8x512x128x128.Idx) :
    i ∈ ((cfg0.win 3).blk t).view.set ↔ ∀ a : Fin 4, win0_3.index t a * S1x128x128x128.size a ≤ (i a).val
      ∧ (i a).val < win0_3.index t a * S1x128x128x128.size a + S1x128x128x128.size a := by
  show i ∈ ((View.whole main_v0).slice (win0_3.rect t)).set ↔ _
  rw [View.set_slice_whole, Rect.mem_set_unit]
  exact Iff.rfl

/-- Every array index (n, i, j, k) is in the output block of the point at position (n, i / 128, 0, 0). -/
theorem cover (i : S8x512x128x128.Idx) :
    ∃ t : Fin cfg0.N, (cfg0.win 3).flush t = true ∧ i ∈ ((cfg0.win 3).blk t).view.set := by
  have hi0 : (i 0).val < 8 := (i 0).isLt
  have hi1 : (i 1).val < 512 := (i 1).isLt
  have hi2 : (i 2).val < 128 := (i 2).isLt
  have hi3 : (i 3).val < 128 := (i 3).isLt
  obtain ⟨t, ht⟩ := idx_onto ⟨(i 0).val, hi0⟩ ⟨(i 1).val / 128, by omega⟩
  have q0 : win0_3.index t (0 : Fin 4) = (i 0).val := congrFun ht 0
  have q1 : win0_3.index t (1 : Fin 4) = (i 1).val / 128 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 128 ≤ (i 1).val ∧ (i 1).val < win0_3.index t (1 : Fin 4) * 128 + 128; omega
  | ⟨2, _⟩ => show win0_3.index t (2 : Fin 4) * 128 ≤ (i 2).val ∧ (i 2).val < win0_3.index t (2 : Fin 4) * 128 + 128; omega
  | ⟨3, _⟩ => show win0_3.index t (3 : Fin 4) * 128 ≤ (i 3).val ∧ (i 3).val < win0_3.index t (3 : Fin 4) * 128 + 128; omega

/-! ## The array after the run, and the run -/

/-- After all 32 points the result array is the affine map of the three argument arrays as launched. -/
theorem final (c : Dev nD) :
    (dats m 0 c).arrAt 3 cfg0.N
      = affine (m ((c : Thread nD τ).loc main_arg0)) (m ((c : Thread nD τ).loc main_arg1)) (m ((c : Thread nD τ).loc main_arg2)) :=
  (dats m 0 c).arrAt_eq_of_cover 3 _ (fun t _ => flushed_eq m c t) cover

/-- Every weakly fair execution of the kernel's program terminates with the result array at the affine map of the
    arguments, and the arguments unchanged. -/
theorem run : θ_run defs (onTc (τ := τ) (main (F := F))) ⟨m, fun _ => 0, ρ⟩ fun r => ∀ c : Dev nD,
      r.2.mem ((c : Thread nD τ).loc main_v0)
        = affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.BlockValue

end
-- ==== Proof.ReferenceAffine.lean ====
/-
  The reference's result is the per-channel affine map.

  The reference spells `x * weight[:, None, None] + bias[:, None, None]`: each vector of length 512 is laid out
  as 512 × 1 × 1, then as 1 × 512 × 1 × 1, then copied along the axes of extent 1 to the array's extents; the
  array is multiplied by the first and the second is added. Read at an index (n, i, j, k), each of the three
  re-layings keeps the channel coordinate i and sends the other coordinates to 0, so the broadcast vector's
  entry there is the vector's entry i, and the result is `x(n, i, j, k) · weight(i) + bias(i)`.
-/
import proofs.«149766_j19387482374244_1_alg».proof.Proof.Gen.ReferenceIdeal.Read
import proofs.«149766_j19387482374244_1_alg».proof.Proof.ChannelAffine

noncomputable section

namespace Cert.ReferenceIdeal.RefValue

open Cert.ReferenceIdeal Cert.ReferenceIdeal.Gen Cert.ReferenceIdeal.Read Cert.ChannelAffine
open Idealize.ShloMosaic Idealize.ShloMosaic.TcCoe Idealize.SL.Sem

variable {F : FTy → Type} [FloatOps F]

/-- Through the three re-layings of the scale vector, the array index (n, i, j, k) reads the vector at i. -/
theorem scale_idx (i : S8x512x128x128.Idx) : idx_main_v0 (idx_main_v1 (idx_main_v2 i)) = chan i := by
  funext a; match a with | ⟨0, _⟩ => rfl

/-- The same for the shift vector. -/
theorem shift_idx (i : S8x512x128x128.Idx) : idx_main_v4 (idx_main_v5 (idx_main_v6 i)) = chan i := by
  funext a; match a with | ⟨0, _⟩ => rfl

/-- The last stage of the reference, as a function of its three arguments, is the per-channel affine map. -/
theorem result_eq_affine (x : (⟨S8x512x128x128, .f32⟩ : BufTy).Contents (Elt F)) (w b : (⟨S512, .f32⟩ : BufTy).Contents (Elt F)) :
    val_main_v7 (F := F) x w b = affine x w b := by
  funext i
  rw [val_main_v7_apply, val_main_v3_apply, val_main_v2_apply, val_main_v1_apply, val_main_v0_apply,
    val_main_v6_apply, val_main_v5_apply, val_main_v4_apply, scale_idx, shift_idx]
  rfl

end Cert.ReferenceIdeal.RefValue

end
-- ==== Proof.lean ====
/-
  A per-channel scale and shift of a rank-4 array: the kernel against the array expression.

  Both programs take an array `x` of extents 8 × 512 × 128 × 128 and two vectors `weight`, `bias` of length
  512, and both return the array whose entry (n, i, j, k) is `x(n, i, j, k) · weight(i) + bias(i)`
  (Proof/ChannelAffine.lean states this function once).

  The kernel walks an 8 × 4 grid; the point (n, q) computes the 1 × 128 × 128 × 128 block of the result with batch
  entry n and channels 128·q … 128·q + 127 from the same block of `x` and the 128 entries of each vector
  for those channels, and the 32 blocks tile the result (Proof/KernelAffine.lean). The reference lays each
  vector out as 1 × 512 × 1 × 1, copies it along the other three axes, multiplies and adds; read at an index,
  every re-laying keeps the channel coordinate (Proof/ReferenceAffine.lean). Each side performs exactly one
  product and one sum per entry, on the same three numbers in the same order, so the two results are equal for
  any values of the inputs — finite or not — and the precondition is not used. The three frames are the
  generated ones (the reference's is its generated run with the result forgotten), and the idealization
  rewrote nothing, so that conjunct is trivial.
-/
import proofs.«149766_j19387482374244_1_alg».proof.Defs
import proofs.«149766_j19387482374244_1_alg».proof.Proof.Gen.Kernel
import proofs.«149766_j19387482374244_1_alg».proof.Proof.Gen.Kernel.Skeleton
import proofs.«149766_j19387482374244_1_alg».proof.Proof.Gen.Kernel.Launch
import proofs.«149766_j19387482374244_1_alg».proof.Proof.Gen.Kernel.Points
import proofs.«149766_j19387482374244_1_alg».proof.Proof.Gen.Kernel.Frame
import proofs.«149766_j19387482374244_1_alg».proof.Proof.Gen.KernelIdeal
import proofs.«149766_j19387482374244_1_alg».proof.Proof.Gen.KernelIdeal.Skeleton
import proofs.«149766_j19387482374244_1_alg».proof.Proof.Gen.KernelIdeal.Launch
import proofs.«149766_j19387482374244_1_alg».proof.Proof.Gen.KernelIdeal.Points
import proofs.«149766_j19387482374244_1_alg».proof.Proof.Gen.KernelIdeal.Frame
import proofs.«149766_j19387482374244_1_alg».proof.Proof.Gen.ReferenceIdeal
import proofs.«149766_j19387482374244_1_alg».proof.Proof.Gen.Pre_finite_inputs
import proofs.«149766_j19387482374244_1_alg».proof.Proof.Gen.KernelIdeal.Value
import proofs.«149766_j19387482374244_1_alg».proof.Proof.Gen.ReferenceIdeal.Run
import proofs.«149766_j19387482374244_1_alg».proof.Proof.Gen.ReferenceIdeal.Read
import proofs.«149766_j19387482374244_1_alg».proof.Proof.ChannelAffine
import proofs.«149766_j19387482374244_1_alg».proof.Proof.KernelAffine
import proofs.«149766_j19387482374244_1_alg».proof.Proof.ReferenceAffine
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation, so there is nothing to restate. -/
theorem preserves : Cert.preserves_Kernel_KernelIdeal := trivial

/-- From memories that agree on the three arguments, both programs end with the result array at
    `x(n, i, j, k) · weight(i) + bias(i)` of those arguments: the kernel block by block, the reference through its
    three re-layings of each vector. -/
theorem algebraic : Cert.algebraic_KernelIdeal_ReferenceIdeal := by
  intro m ρ m' ρ' _ hagree
  refine ⟨_, Cert.KernelIdeal.BlockValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq_affine,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
